-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S10000x64 : Shape := ⟨2, ![10000, 64]⟩

abbrev nBuf : Space → Nat
  | .hbm => 70
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S64x64, .f32⟩
  | .hbm, ⟨38, _⟩ => ⟨S64x64, .f32⟩
  | .hbm, ⟨39, _⟩ => ⟨S1x64, .f32⟩
  | .hbm, ⟨40, _⟩ => ⟨S50000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x64, .f32⟩
  | .hbm, ⟨65, _⟩ => ⟨S50000x64, .f32⟩
  | .hbm, ⟨66, _⟩ => ⟨S64x64, .f32⟩
  | .hbm, ⟨67, _⟩ => ⟨S64x64, .f32⟩
  | .hbm, ⟨68, _⟩ => ⟨S1x64, .f32⟩
  | .hbm, ⟨69, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S64x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S64x64, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S64x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S64x64, .f32⟩
  | .hbm, ⟨77, _⟩ => ⟨S50000x64, .f32⟩
  | .hbm, ⟨78, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The idealized kernel program's run, with its result array named.

  The program is two stretches of host operations, each followed by a pallas_call.  Every weakly fair execution terminates
  without a fault; when it ends, every buffer of the program holds what the fold of the four segments over the launch memory
  gives it.  Read at the result buffer, that fold is what the second pallas_call's write-backs leave in it; read at an
  argument, it is the launch contents.
-/
import proofs.«112380_j70325794505477_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last segment boundary's
    contents and the eight argument arrays as launched. -/
theorem run_out : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.LibPlainMatmul.lean ====
/-
  A plain matrix product read at a row and a column.

  For a product of an `[M, K]` matrix by a `[K, N]` matrix that contracts the first operand's second axis with the second
  operand's first axis and has no batch axis, accumulated into the zero matrix, the entry at `(i, o)` is, on the extended
  reals, the sum over `k` of the first operand at `(i, k)` times the second at `(k, o)`.  The lemma takes the four
  coordinate facts of the dimension record (which operand coordinate reads the result index, which the contraction index) as
  hypotheses, so that it serves any record with this layout, whatever its extents.
-/
import Idealize.ShloMosaic.PureOps.Ideal.Laws
import Idealize.ShloMosaic.Lib.ValueIdx

noncomputable section

open scoped BigOperators

namespace Cert.Lib.PlainMatmul

open Idealize.ShloMosaic Idealize.ShloMosaic.ValueIdx

/-- The entry `(i, o)` of `lhs · rhs` accumulated into zero is `∑ k, lhs (i, k) * rhs (k, o)`. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (lhs : FVec Ideal ⟨2, ![M, K]⟩ φ₁) (rhs : FVec Ideal ⟨2, ![K, N]⟩ φ₂)
    (i : Fin M) (o : Fin N) :
    matmul d prec lhs rhs (constant ⟨2, ![M, N]⟩ .f32 0x00000000#32) (ix2 i o)
      = ∑ k : Fin K, lhs (ix2 i k) * rhs (ix2 k o) := by
  refine (Ideal.matmul_constant_zero_apply d prec lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

end Cert.Lib.PlainMatmul

end
-- ==== Proof.LibLayerEntry.lean ====
/-
  One layer of a mean-aggregating graph convolution, entry by entry, on the extended reals.

  Row `r` of a layer's output depends on row `r` of the aggregated features `a` and of the node features `x`: the entry at
  column `o` is the product of row `r` of `a` with column `o` of the neighbour weights, plus the product of row `r` of `x`
  with column `o` of the root weights, plus the bias at `o`.  The three terms are added in one of two orders; addition of
  extended reals is commutative and associative, so the two orders agree, at the infinities too.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«112380_j70325794505477_1_alg».proof.Proof.LibPlainMatmul

noncomputable section

open scoped BigOperators

namespace Cert.Sage

open Idealize.ShloMosaic Idealize.ShloMosaic.ValueIdx

/-- The entry `(r, o)` of a layer before its activation: the two products first, then the bias. -/
def pre {N D H : ℕ} (a x : (⟨2, ![N, D]⟩ : Shape).Idx → EReal) (wl wr : (⟨2, ![D, H]⟩ : Shape).Idx → EReal)
    (b : (⟨2, ![1, H]⟩ : Shape).Idx → EReal) (r : Fin N) (o : Fin H) : EReal :=
  ((∑ k : Fin D, a (ix2 r k) * wl (ix2 k o)) + (∑ k : Fin D, x (ix2 r k) * wr (ix2 k o))) + b (ix2 (0 : Fin 1) o)

/-- The same three terms with the bias added before the second product. -/
theorem pre_eq_bias_first {N D H : ℕ} (a x : (⟨2, ![N, D]⟩ : Shape).Idx → EReal) (wl wr : (⟨2, ![D, H]⟩ : Shape).Idx → EReal)
    (b : (⟨2, ![1, H]⟩ : Shape).Idx → EReal) (r : Fin N) (o : Fin H) :
    ((∑ k : Fin D, a (ix2 r k) * wl (ix2 k o)) + b (ix2 (0 : Fin 1) o)) + (∑ k : Fin D, x (ix2 r k) * wr (ix2 k o))
      = pre a x wl wr b r o := by
  unfold pre; exact add_right_comm _ _ _

/-- Two matrix products into zero accumulators, added, plus a row broadcast over the rows, read at `(p, q)`:
    the sum over `k` of the first pair, plus the sum over `k` of the second pair, plus the row's entry at `q`. -/
theorem products_bias_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (A B : FVec Ideal ⟨2, ![M, K]⟩ φ₁) (Wl Wr : FVec Ideal ⟨2, ![K, N]⟩ φ₂) (bias : FVec Ideal ⟨2, ![1, N]⟩ .f32)
    (hb : (⟨2, ![1, N]⟩ : Shape).Broadcasts ⟨2, ![M, N]⟩) (p : Fin M) (q : Fin N) :
    addf (addf (matmul d none A Wl (constant ⟨2, ![M, N]⟩ .f32 0x00000000#32))
               (matmul d none B Wr (constant ⟨2, ![M, N]⟩ .f32 0x00000000#32)))
         (broadcastTo ⟨2, ![M, N]⟩ bias hb) (ix2 p q)
      = ((∑ k : Fin K, A (ix2 p k) * Wl (ix2 k q)) + (∑ k : Fin K, B (ix2 p k) * Wr (ix2 k q))) + bias (ix2 (0 : Fin 1) q) := by
  show (matmul d none A Wl (constant ⟨2, ![M, N]⟩ .f32 0x00000000#32) (ix2 p q)
        + matmul d none B Wr (constant ⟨2, ![M, N]⟩ .f32 0x00000000#32) (ix2 p q))
       + broadcastTo ⟨2, ![M, N]⟩ bias hb (ix2 p q) = _
  rw [Cert.Lib.PlainMatmul.matmul_zero_apply d hr hs l0 l1 r0 r1 none A Wl p q,
    Cert.Lib.PlainMatmul.matmul_zero_apply d hr hs l0 l1 r0 r1 none B Wr p q,
    broadcastTo_1b_ab_apply bias hb p q]

end Cert.Sage

end
-- ==== Proof.Payload.lean ====
/-
  What one grid point of each dense kernel stores, entry by entry, on the extended reals.

  The body loads a block of aggregated rows, the matching block of node rows, the two weight matrices (already
  transposed by the host) and the bias row; it multiplies the aggregated rows by the neighbour weights and the node rows by
  the root weights (roundings to bf16 on the way in are the identity on the extended reals), adds the two products, adds
  the bias row to every row, and — in the first layer only — applies tanh.  So the stored entry at row `p`, column `q` is
  `Sage.pre` of the loaded blocks at `(p, q)`, under tanh in the first layer.
-/
import proofs.«112380_j70325794505477_1_alg».proof.Proof.Gen.KernelIdeal.Skeleton
import proofs.«112380_j70325794505477_1_alg».proof.Proof.LibLayerEntry
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The dimension record of the body's two products: a `[10000, 64]` block times a `[64, 64]` matrix, contracting the
    block's columns with the matrix's rows. Its four coordinate facts follow. -/
abbrev dd : DotDims S10000x64 S64x64 S10000x64 := dot_S10000x64_S64x64_S10000x64_1_0_0_1_n_n

theorem dd_l0 (j : S10000x64.Idx) (q : dd.contr.Idx) : (dd.lhsIdx j q ⟨0, Nat.zero_lt_two⟩).val = (j ⟨0, Nat.zero_lt_two⟩).val := by
  unfold DotDims.lhsIdx
  rw [dif_neg (show ¬(⟨0, Nat.zero_lt_two⟩ : Fin S10000x64.rank) ∈ dd.lhsBatch by decide), dif_pos (show (⟨0, Nat.zero_lt_two⟩ : Fin S10000x64.rank) ∈ dd.lhsNonContracting by decide)]
  rfl
theorem dd_l1 (j : S10000x64.Idx) (q : dd.contr.Idx) : (dd.lhsIdx j q ⟨1, Nat.one_lt_two⟩).val = (q ⟨0, by decide⟩).val :=
  dd.lhsIdx_val_of_single rfl j q
theorem dd_r0 (j : S10000x64.Idx) (q : dd.contr.Idx) : (dd.rhsIdx j q ⟨0, Nat.zero_lt_two⟩).val = (q ⟨0, by decide⟩).val :=
  dd.rhsIdx_val_of_single rfl j q
theorem dd_r1 (j : S10000x64.Idx) (q : dd.contr.Idx) : (dd.rhsIdx j q ⟨1, Nat.one_lt_two⟩).val = (j ⟨1, Nat.one_lt_two⟩).val := by
  unfold DotDims.rhsIdx
  rw [dif_neg (show ¬(⟨1, Nat.one_lt_two⟩ : Fin S64x64.rank) ∈ dd.rhsBatch by decide), dif_pos (show (⟨1, Nat.one_lt_two⟩ : Fin S64x64.rank) ∈ dd.rhsNonContracting by decide)]
  rfl

/-- First layer: the stored entry is tanh of the two products plus the bias. -/
theorem pay0_apply (x0 x1 : Vec Ideal S10000x64 .f32) (x2 x4 : Vec Ideal S64x64 .f32) (x3 : Vec Ideal S1x64 .f32)
    (p : Fin 10000) (q : Fin 64) :
    k0_pay1 (F := Ideal) x0 x1 x2 x4 x3 (ix2 p q) = Ideal.tanh (Cert.Sage.pre (N := 10000) (D := 64) (H := 64) x0 x1 x2 x4 x3 p q) := by
  unfold k0_pay1
  simp only [shapeCast_self]
  exact congrArg Ideal.tanh (Cert.Sage.products_bias_apply dd rfl rfl dd_l0 dd_l1 dd_r0 dd_r1 (truncf .bf16 x0 bitsLt_bf16_f32) (truncf .bf16 x1 bitsLt_bf16_f32)
    (truncf .bf16 x2 bitsLt_bf16_f32) (truncf .bf16 x4 bitsLt_bf16_f32) x3 broadcasts_S1x64_S10000x64 p q)

/-- Second layer: the same entry without the activation. -/
theorem pay1_apply (x0 x1 : Vec Ideal S10000x64 .f32) (x2 x4 : Vec Ideal S64x64 .f32) (x3 : Vec Ideal S1x64 .f32)
    (p : Fin 10000) (q : Fin 64) :
    k1_pay1 (F := Ideal) x0 x1 x2 x4 x3 (ix2 p q) = Cert.Sage.pre (N := 10000) (D := 64) (H := 64) x0 x1 x2 x4 x3 p q := by
  unfold k1_pay1
  simp only [shapeCast_self]
  exact Cert.Sage.products_bias_apply dd rfl rfl dd_l0 dd_l1 dd_r0 dd_r1 (truncf .bf16 x0 bitsLt_bf16_f32) (truncf .bf16 x1 bitsLt_bf16_f32)
    (truncf .bf16 x2 bitsLt_bf16_f32) (truncf .bf16 x4 bitsLt_bf16_f32) x3 broadcasts_S1x64_S10000x64 p q

end Cert.KernelIdeal.Hand

end
-- ==== Proof.Spec.lean ====
/-
  The two-layer mean-aggregating graph network as one function of its eight arguments.

  `srcOf` / `dstOf` are the two rows of the edge list.  `meanAgg feat src dst` is, per destination node, the sum of the source
  nodes' feature rows over the edges into it, divided by the larger of the edge count and one (a negative source index
  first wrapped by the number of nodes).  `layerPre` is one layer before its activation: aggregated rows times the
  transposed neighbour weights, plus node rows times the transposed root weights, plus the bias; `layerTanh` is that under
  tanh.  `network` composes: aggregate the inputs, apply the first layer with tanh, aggregate its output, apply the second
  layer.  The gather, the two scatter-adds and the layout side conditions come bundled in `Dims`, so that two programs
  that print the same operations each instantiate the same function.
-/
import proofs.«112380_j70325794505477_1_alg».proof.Proof.LibLayerEntry
import Idealize.ShloMosaic.PureOps.Ideal
import Idealize.ShloMosaic.Lib.ValueIdx

noncomputable section

open scoped BigOperators

namespace Cert.Sage

open Idealize.ShloMosaic Idealize.ShloMosaic.ValueIdx

abbrev SND : Shape := ⟨2, ![50000, 64]⟩
abbrev SDD : Shape := ⟨2, ![64, 64]⟩
abbrev S1D : Shape := ⟨2, ![1, 64]⟩
abbrev SD : Shape := ⟨1, ![64]⟩
abbrev SE : Shape := ⟨1, ![800000]⟩
abbrev SE1 : Shape := ⟨2, ![800000, 1]⟩
abbrev SED : Shape := ⟨2, ![800000, 64]⟩
abbrev SN : Shape := ⟨1, ![50000]⟩
abbrev SN1 : Shape := ⟨2, ![50000, 1]⟩
abbrev S0 : Shape := ⟨0, ![]⟩
abbrev S2E : Shape := ⟨2, ![2, 800000]⟩
abbrev S1E : Shape := ⟨2, ![1, 800000]⟩

/-- The dimension records of the row gather and the two scatter-adds, and the side conditions of the layout operations. -/
structure Dims where
  g : GatherDims SND SE1 SED
  s2 : ScatterDims SND SE1 SED
  s1 : ScatterDims SN SE1 SE
  b0E : S0.BroadcastsInDim SE (![] : Fin 0 → Fin SE.rank)
  bE : SE.BroadcastsInDim SE1 (![0] : Fin 1 → Fin SE1.rank)
  b0ND : S0.BroadcastsInDim SND (![] : Fin 0 → Fin SND.rank)
  b0N : S0.BroadcastsInDim SN (![] : Fin 0 → Fin SN.rank)
  bN : SN.BroadcastsInDim SN1 (![0] : Fin 1 → Fin SN1.rank)
  bN1 : SN1.BroadcastsInDim SND (![0, 1] : Fin 2 → Fin SND.rank)
  tr : SDD.Transposes [1, 0] SDD
  rs : SD.ShapeCasts S1D
  sl0 : S2E.Slices ![0, 0] S1E
  sl1 : S2E.Slices ![1, 0] S1E
  sc : S1E.ShapeCasts SE

section
variable {F : FTy → Type} [FloatOps F] (d : Dims)

/-- The edges' source nodes: row 0 of the edge list. -/
def srcOf (ei : (⟨S2E, .i32⟩ : BufTy).Contents (Elt F)) : (⟨SE, .i32⟩ : BufTy).Contents (Elt F) :=
  shapeCast _ (extractStridedSlice S1E ![0, 0] ei d.sl0) d.sc

/-- The edges' destination nodes: row 1 of the edge list. -/
def dstOf (ei : (⟨S2E, .i32⟩ : BufTy).Contents (Elt F)) : (⟨SE, .i32⟩ : BufTy).Contents (Elt F) :=
  shapeCast _ (extractStridedSlice S1E ![1, 0] ei d.sl1) d.sc

/-- Per destination node, the mean over its incoming edges of the source nodes' feature rows (the divisor at least one). -/
def meanAgg (feat : (⟨SND, .f32⟩ : BufTy).Contents (Elt F)) (src dst : (⟨SE, .i32⟩ : BufTy).Contents (Elt F)) :
    (⟨SND, .f32⟩ : BufTy).Contents (Elt F) :=
  Host.divf
    (Host.scatterAdd d.s2 (broadcastInDim SND ![] d.b0ND (constant S0 .f32 0x00000000#32)) (broadcastInDim SE1 ![0] d.bE dst)
      (Host.gather d.g feat (broadcastInDim SE1 ![0] d.bE
        (select (cmpi .slt src (broadcastInDim SE ![] d.b0E (constantI S0 32 0#32)))
          (addi src (broadcastInDim SE ![] d.b0E (constantI S0 32 50000#32))) src))))
    (broadcastInDim SND ![0, 1] d.bN1 (broadcastInDim SN1 ![0] d.bN
      (maximumf
        (Host.scatterAdd d.s1 (broadcastInDim SN ![] d.b0N (constant S0 .f32 0x00000000#32)) (broadcastInDim SE1 ![0] d.bE dst)
          (broadcastInDim SE ![] d.b0E (constant S0 .f32 0x3F800000#32)))
        (broadcastInDim SN ![] d.b0N (constant S0 .f32 0x3F800000#32)))))

end

/-- A node index's row and column as numbers below the literal extents. -/
abbrev row (i : SND.Idx) : Fin 50000 := ⟨(i 0).val, (i 0).isLt⟩
abbrev col (i : SND.Idx) : Fin 64 := ⟨(i 1).val, (i 1).isLt⟩

/-- One layer before its activation, as a whole array: entry `(r, o)` is row `r` of the aggregated features times column `o`
    of the neighbour weights, plus row `r` of the node features times column `o` of the root weights, plus the bias at `o`. -/
def layerPre (A X : SND.Idx → EReal) (Wl Wr : SDD.Idx → EReal) (B : S1D.Idx → EReal) : SND.Idx → EReal :=
  fun i => pre (N := 50000) (D := 64) (H := 64) A X Wl Wr B (row i) (col i)

/-- The same layer under tanh. -/
def layerTanh (A X : SND.Idx → EReal) (Wl Wr : SDD.Idx → EReal) (B : S1D.Idx → EReal) : SND.Idx → EReal :=
  fun i => Ideal.tanh (layerPre A X Wl Wr B i)

/-- The first layer's output: tanh of the layer applied to the aggregated inputs and the inputs. -/
def hiddenOut (d : Dims) (x : (⟨SND, .f32⟩ : BufTy).Contents (Elt Ideal)) (ei : (⟨S2E, .i32⟩ : BufTy).Contents (Elt Ideal))
    (wl1 : (⟨SDD, .f32⟩ : BufTy).Contents (Elt Ideal)) (b1 : (⟨SD, .f32⟩ : BufTy).Contents (Elt Ideal))
    (wr1 : (⟨SDD, .f32⟩ : BufTy).Contents (Elt Ideal)) : (⟨SND, .f32⟩ : BufTy).Contents (Elt Ideal) :=
  layerTanh (meanAgg (F := Ideal) d x (srcOf d ei) (dstOf d ei)) x (transpose SDD [1, 0] wl1 d.tr) (transpose SDD [1, 0] wr1 d.tr)
    (shapeCast S1D b1 d.rs)

/-- The network's output: the second layer applied to the aggregated hidden features and the hidden features. -/
def network (d : Dims) (x : (⟨SND, .f32⟩ : BufTy).Contents (Elt Ideal)) (ei : (⟨S2E, .i32⟩ : BufTy).Contents (Elt Ideal))
    (wl1 : (⟨SDD, .f32⟩ : BufTy).Contents (Elt Ideal)) (b1 : (⟨SD, .f32⟩ : BufTy).Contents (Elt Ideal))
    (wr1 wl2 : (⟨SDD, .f32⟩ : BufTy).Contents (Elt Ideal)) (b2 : (⟨SD, .f32⟩ : BufTy).Contents (Elt Ideal))
    (wr2 : (⟨SDD, .f32⟩ : BufTy).Contents (Elt Ideal)) : (⟨SND, .f32⟩ : BufTy).Contents (Elt Ideal) :=
  layerPre (meanAgg (F := Ideal) d (hiddenOut d x ei wl1 b1 wr1) (srcOf d ei) (dstOf d ei)) (hiddenOut d x ei wl1 b1 wr1)
    (transpose SDD [1, 0] wl2 d.tr) (transpose SDD [1, 0] wr2 d.tr) (shapeCast S1D b2 d.rs)

end Cert.Sage

end
-- ==== Proof.Region.lean ====
/-
  What each pallas_call leaves in its output array, as one function of the arrays the call is entered with.

  Each call walks five grid points; point `t` loads rows `10000 t … 10000 t + 9999` of the aggregated array and of the node
  array, the two whole weight matrices and the whole bias row, and writes back the same rows of the output.  The stored
  entry at `(p, q)` depends only on row `p` of the two loaded row blocks, so the write-back of point `t` is block `t` of a
  single whole-array function, and the five blocks tile the output: after the call the output IS that function.
-/
import proofs.«112380_j70325794505477_1_alg».proof.Proof.Gen.KernelIdeal.Frame
import proofs.«112380_j70325794505477_1_alg».proof.Proof.Payload
import proofs.«112380_j70325794505477_1_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Sage (layerPre layerTanh row col)

theorem hz : (![0, 0] : Fin 2 → Nat) = fun _ => 0 := funext fun a => by fin_cases a <;> rfl

variable (V : (c : Dev nD) → (b : Ref sig .tc) → Buf (Elt Ideal) ((c : Thread nD τ).loc b))

/-! ## Region 0 -/

/-- The printed index maps of pallas_call 0, decided over its five grid points: the two row-blocked inputs and the output
    sit at block row `t`, the two weight matrices and the bias row at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of aggregated rows at point `t`, entry `(p, k)`, is row `10000 t + p` of the aggregated array. -/
theorem blk0_0 (c : Dev nD) (t : Fin cfg0.N) (p : Fin 10000) (k : Fin 64) (r : Fin 50000) (hr : r.val = t.val * 10000 + p.val) :
    (iblk0 V c 0 t : Vec Ideal S10000x64 .f32) (ix2 p k) = (V c main_v22 : S50000x64.Idx → EReal) (ix2 r k) := by
  obtain ⟨e0, e1, -⟩ := idx0 t
  unfold iblk0
  rw [View.read_apply]
  show V c main_v22 _ = V c main_v22 _
  refine congrArg (V c main_v22) ?_
  funext a; apply Fin.ext
  match a with
  | ⟨0, _⟩ => show win0_0.index t (0 : Fin 2) * 10000 + 1 * p.val = r.val; omega
  | ⟨1, _⟩ => show win0_0.index t (1 : Fin 2) * 64 + 1 * k.val = k.val; omega

/-- The block of node rows at point `t`, entry `(p, k)`, is row `10000 t + p` of the node array. -/
theorem blk0_1 (c : Dev nD) (t : Fin cfg0.N) (p : Fin 10000) (k : Fin 64) (r : Fin 50000) (hr : r.val = t.val * 10000 + p.val) :
    (iblk0 V c 1 t : Vec Ideal S10000x64 .f32) (ix2 p k) = (V c main_arg0 : S50000x64.Idx → EReal) (ix2 r k) := by
  obtain ⟨-, -, e0, e1, -⟩ := idx0 t
  unfold iblk0
  rw [View.read_apply]
  show V c main_arg0 _ = V c main_arg0 _
  refine congrArg (V c main_arg0) ?_
  funext a; apply Fin.ext
  match a with
  | ⟨0, _⟩ => show win0_1.index t (0 : Fin 2) * 10000 + 1 * p.val = r.val; omega
  | ⟨1, _⟩ => show win0_1.index t (1 : Fin 2) * 64 + 1 * k.val = k.val; omega

/-- The neighbour weights' one block is the whole matrix. -/
theorem blk0_2 (c : Dev nD) (t : Fin cfg0.N) (k q : Fin 64) :
    (iblk0 V c 2 t : Vec Ideal S64x64 .f32) (ix2 k q) = (V c main_v23 : S64x64.Idx → EReal) (ix2 k q) := by
  obtain ⟨-, -, -, -, e0, e1, -⟩ := idx0 t
  unfold iblk0
  rw [View.read_apply]
  show V c main_v23 _ = V c main_v23 _
  refine congrArg (V c main_v23) ?_
  funext a; apply Fin.ext
  match a with
  | ⟨0, _⟩ => show win0_2.index t (0 : Fin 2) * 64 + 1 * k.val = k.val; omega
  | ⟨1, _⟩ => show win0_2.index t (1 : Fin 2) * 64 + 1 * q.val = q.val; omega

/-- The bias row's one block is the whole row. -/
theorem blk0_3 (c : Dev nD) (t : Fin cfg0.N) (q : Fin 64) :
    (iblk0 V c 3 t : Vec Ideal S1x64 .f32) (ix2 (0 : Fin 1) q) = (V c main_v25 : S1x64.Idx → EReal) (ix2 (0 : Fin 1) q) := by
  obtain ⟨-, -, -, -, -, -, e0, e1, -⟩ := idx0 t
  unfold iblk0
  rw [View.read_apply]
  show V c main_v25 _ = V c main_v25 _
  refine congrArg (V c main_v25) ?_
  funext a; apply Fin.ext
  match a with
  | ⟨0, _⟩ => show win0_3.index t (0 : Fin 2) * 1 + 1 * 0 = 0; omega
  | ⟨1, _⟩ => show win0_3.index t (1 : Fin 2) * 64 + 1 * q.val = q.val; omega

/-- The root weights' one block is the whole matrix. -/
theorem blk0_4 (c : Dev nD) (t : Fin cfg0.N) (k q : Fin 64) :
    (iblk0 V c 4 t : Vec Ideal S64x64 .f32) (ix2 k q) = (V c main_v24 : S64x64.Idx → EReal) (ix2 k q) := by
  obtain ⟨-, -, -, -, -, -, -, -, e0, e1, -⟩ := idx0 t
  unfold iblk0
  rw [View.read_apply]
  show V c main_v24 _ = V c main_v24 _
  refine congrArg (V c main_v24) ?_
  funext a; apply Fin.ext
  match a with
  | ⟨0, _⟩ => show win0_4.index t (0 : Fin 2) * 64 + 1 * k.val = k.val; omega
  | ⟨1, _⟩ => show win0_4.index t (1 : Fin 2) * 64 + 1 * q.val = q.val; omega

/-- What point `t` writes back is block `t` of the layer's whole-array function of the arrays the region finds. -/
theorem flushed0_eq (c : Dev nD) (t : Fin cfg0.N) :
    (dat0 V c).flushed 5 t = ((cfg0.win 5).blk t).view.read (Elt Ideal)
      (layerTanh (V c main_v22) (V c main_arg0) (V c main_v23) (V c main_v24) (V c main_v25)) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  obtain ⟨-, -, -, -, -, -, -, -, -, -, e0, e1⟩ := idx0 t
  have hN : cfg0.N = 5 := N_0
  have ht : t.val < cfg0.N := t.isLt
  have hr : t.val * 10000 + p.val < 50000 := by have := p.isLt; omega
  have hemb : ((cfg0.win 5).blk t).view.emb (ix2 p q) = ix2 (⟨t.val * 10000 + p.val, hr⟩ : Fin 50000) q := by
    funext a; apply Fin.ext
    match a with
    | ⟨0, _⟩ => show win0_5.index t (0 : Fin 2) * 10000 + 1 * p.val = t.val * 10000 + p.val; omega
    | ⟨1, _⟩ => show win0_5.index t (1 : Fin 2) * 64 + 1 * q.val = q.val; omega
  refine (pay0_apply (iblk0 V c 0 t) (iblk0 V c 1 t) (iblk0 V c 2 t) (iblk0 V c 4 t) (iblk0 V c 3 t) p q).trans ?_
  rw [View.read_apply, hemb]
  unfold layerTanh layerPre Cert.Sage.pre
  refine congrArg Ideal.tanh ?_
  refine congrArg₂ (· + ·) (congrArg₂ (· + ·) (Finset.sum_congr rfl fun k _ => ?_) (Finset.sum_congr rfl fun k _ => ?_)) ?_
  · rw [blk0_0 V c t p k ⟨t.val * 10000 + p.val, hr⟩ rfl, blk0_2 V c t k q]
  · rw [blk0_1 V c t p k ⟨t.val * 10000 + p.val, hr⟩ rfl, blk0_4 V c t k q]
  · rw [blk0_3 V c t q]

/-- An index of the output array lies in point `t`'s block iff each coordinate lies in the block's range on its axis. -/
theorem mem_blk0 (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- Every row of the output lies in the block of the point numbered by the row's quotient by 10000. -/
theorem cover0 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 5 := N_0
  have htN : (i 0).val / 10000 < cfg0.N := by omega
  obtain ⟨-, -, -, -, -, -, -, -, -, -, e0, e1⟩ := idx0 ⟨(i 0).val / 10000, htN⟩
  refine ⟨⟨(i 0).val / 10000, htN⟩, flush0_5 _, ?_⟩
  rw [mem_blk0]
  intro a
  match a with
  | ⟨0, _⟩ =>
    show win0_5.index ⟨(i 0).val / 10000, htN⟩ (0 : Fin 2) * 10000 ≤ (i 0).val ∧ (i 0).val < win0_5.index ⟨(i 0).val / 10000, htN⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, htN⟩ (1 : Fin 2) * 64 ≤ (i 1).val ∧ (i 1).val < win0_5.index ⟨(i 0).val / 10000, htN⟩ (1 : Fin 2) * 64 + 64
    rw [e1]; omega

/-- The output array after the region: the layer's function of the arrays the region was entered with. -/
theorem final0 (c : Dev nD) : (dat0 V c).arrAt 5 cfg0.N
    = layerTanh (V c main_v22) (V c main_arg0) (V c main_v23) (V c main_v24) (V c main_v25) :=
  (dat0 V c).arrAt_eq_of_cover 5 _ (fun t _ => flushed0_eq V c t) cover0

/-! ## Region 1 -/

/-- The printed index maps of pallas_call 1, decided over its five grid points: the two row-blocked inputs and the output
    sit at block row `t`, the two weight matrices and the bias row at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of aggregated rows at point `t`, entry `(p, k)`, is row `10000 t + p` of the aggregated array. -/
theorem blk1_0 (c : Dev nD) (t : Fin cfg1.N) (p : Fin 10000) (k : Fin 64) (r : Fin 50000) (hr : r.val = t.val * 10000 + p.val) :
    (iblk1 V c 0 t : Vec Ideal S10000x64 .f32) (ix2 p k) = (V c main_v45 : S50000x64.Idx → EReal) (ix2 r k) := by
  obtain ⟨e0, e1, -⟩ := idx1 t
  unfold iblk1
  rw [View.read_apply]
  show V c main_v45 _ = V c main_v45 _
  refine congrArg (V c main_v45) ?_
  funext a; apply Fin.ext
  match a with
  | ⟨0, _⟩ => show win1_0.index t (0 : Fin 2) * 10000 + 1 * p.val = r.val; omega
  | ⟨1, _⟩ => show win1_0.index t (1 : Fin 2) * 64 + 1 * k.val = k.val; omega

/-- The block of node rows at point `t`, entry `(p, k)`, is row `10000 t + p` of the node array. -/
theorem blk1_1 (c : Dev nD) (t : Fin cfg1.N) (p : Fin 10000) (k : Fin 64) (r : Fin 50000) (hr : r.val = t.val * 10000 + p.val) :
    (iblk1 V c 1 t : Vec Ideal S10000x64 .f32) (ix2 p k) = (V c main_v26 : S50000x64.Idx → EReal) (ix2 r k) := by
  obtain ⟨-, -, e0, e1, -⟩ := idx1 t
  unfold iblk1
  rw [View.read_apply]
  show V c main_v26 _ = V c main_v26 _
  refine congrArg (V c main_v26) ?_
  funext a; apply Fin.ext
  match a with
  | ⟨0, _⟩ => show win1_1.index t (0 : Fin 2) * 10000 + 1 * p.val = r.val; omega
  | ⟨1, _⟩ => show win1_1.index t (1 : Fin 2) * 64 + 1 * k.val = k.val; omega

/-- The neighbour weights' one block is the whole matrix. -/
theorem blk1_2 (c : Dev nD) (t : Fin cfg1.N) (k q : Fin 64) :
    (iblk1 V c 2 t : Vec Ideal S64x64 .f32) (ix2 k q) = (V c main_v46 : S64x64.Idx → EReal) (ix2 k q) := by
  obtain ⟨-, -, -, -, e0, e1, -⟩ := idx1 t
  unfold iblk1
  rw [View.read_apply]
  show V c main_v46 _ = V c main_v46 _
  refine congrArg (V c main_v46) ?_
  funext a; apply Fin.ext
  match a with
  | ⟨0, _⟩ => show win1_2.index t (0 : Fin 2) * 64 + 1 * k.val = k.val; omega
  | ⟨1, _⟩ => show win1_2.index t (1 : Fin 2) * 64 + 1 * q.val = q.val; omega

/-- The bias row's one block is the whole row. -/
theorem blk1_3 (c : Dev nD) (t : Fin cfg1.N) (q : Fin 64) :
    (iblk1 V c 3 t : Vec Ideal S1x64 .f32) (ix2 (0 : Fin 1) q) = (V c main_v48 : S1x64.Idx → EReal) (ix2 (0 : Fin 1) q) := by
  obtain ⟨-, -, -, -, -, -, e0, e1, -⟩ := idx1 t
  unfold iblk1
  rw [View.read_apply]
  show V c main_v48 _ = V c main_v48 _
  refine congrArg (V c main_v48) ?_
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- The root weights' one block is the whole matrix. -/
theorem blk1_4 (c : Dev nD) (t : Fin cfg1.N) (k q : Fin 64) :
    (iblk1 V c 4 t : Vec Ideal S64x64 .f32) (ix2 k q) = (V c main_v47 : S64x64.Idx → EReal) (ix2 k q) := by
  obtain ⟨-, -, -, -, -, -, -, -, e0, e1, -⟩ := idx1 t
  unfold iblk1
  rw [View.read_apply]
  show V c main_v47 _ = V c main_v47 _
  refine congrArg (V c main_v47) ?_
  funext a; apply Fin.ext
  match a with
  | ⟨0, _⟩ => show win1_4.index t (0 : Fin 2) * 64 + 1 * k.val = k.val; omega
  | ⟨1, _⟩ => show win1_4.index t (1 : Fin 2) * 64 + 1 * q.val = q.val; omega

/-- What point `t` writes back is block `t` of the layer's whole-array function of the arrays the region finds. -/
theorem flushed1_eq (c : Dev nD) (t : Fin cfg1.N) :
    (dat1 V c).flushed 5 t = ((cfg1.win 5).blk t).view.read (Elt Ideal)
      (layerPre (V c main_v45) (V c main_v26) (V c main_v46) (V c main_v47) (V c main_v48)) := by
  show (cfg1.win 5).cut (grid1.coords t) ((dat1 V c).after 5 t) = _
  rw [after1_5]
  unfold out1_5
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  obtain ⟨-, -, -, -, -, -, -, -, -, -, e0, e1⟩ := idx1 t
  have hN : cfg1.N = 5 := N_1
  have ht : t.val < cfg1.N := t.isLt
  have hr : t.val * 10000 + p.val < 50000 := by have := p.isLt; omega
  have hemb : ((cfg1.win 5).blk t).view.emb (ix2 p q) = ix2 (⟨t.val * 10000 + p.val, hr⟩ : Fin 50000) q := by
    funext a; apply Fin.ext
    match a with
    | ⟨0, _⟩ => show win1_5.index t (0 : Fin 2) * 10000 + 1 * p.val = t.val * 10000 + p.val; omega
    | ⟨1, _⟩ => show win1_5.index t (1 : Fin 2) * 64 + 1 * q.val = q.val; omega
  refine (pay1_apply (iblk1 V c 0 t) (iblk1 V c 1 t) (iblk1 V c 2 t) (iblk1 V c 4 t) (iblk1 V c 3 t) p q).trans ?_
  rw [View.read_apply, hemb]
  unfold layerPre Cert.Sage.pre
  refine congrArg₂ (· + ·) (congrArg₂ (· + ·) (Finset.sum_congr rfl fun k _ => ?_) (Finset.sum_congr rfl fun k _ => ?_)) ?_
  · rw [blk1_0 V c t p k ⟨t.val * 10000 + p.val, hr⟩ rfl, blk1_2 V c t k q]
  · rw [blk1_1 V c t p k ⟨t.val * 10000 + p.val, hr⟩ rfl, blk1_4 V c t k q]
  · rw [blk1_3 V c t q]

/-- An index of the output array lies in point `t`'s block iff each coordinate lies in the block's range on its axis. -/
theorem mem_blk1 (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v49).slice (win1_5.rect t)).set ↔ _
  rw [View.set_slice_whole, Rect.mem_set_unit]
  exact Iff.rfl

/-- Every row of the output lies in the block of the point numbered by the row's quotient by 10000. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 5 := N_1
  have htN : (i 0).val / 10000 < cfg1.N := by omega
  obtain ⟨-, -, -, -, -, -, -, -, -, -, e0, e1⟩ := idx1 ⟨(i 0).val / 10000, htN⟩
  refine ⟨⟨(i 0).val / 10000, htN⟩, flush1_5 _, ?_⟩
  rw [mem_blk1]
  intro a
  match a with
  | ⟨0, _⟩ =>
    show win1_5.index ⟨(i 0).val / 10000, htN⟩ (0 : Fin 2) * 10000 ≤ (i 0).val ∧ (i 0).val < win1_5.index ⟨(i 0).val / 10000, htN⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, htN⟩ (1 : Fin 2) * 64 ≤ (i 1).val ∧ (i 1).val < win1_5.index ⟨(i 0).val / 10000, htN⟩ (1 : Fin 2) * 64 + 64
    rw [e1]; omega

/-- The output array after the region: the layer's function of the arrays the region was entered with. -/
theorem final1 (c : Dev nD) : (dat1 V c).arrAt 5 cfg1.N
    = layerPre (V c main_v45) (V c main_v26) (V c main_v46) (V c main_v47) (V c main_v48) :=
  (dat1 V c).arrAt_eq_of_cover 5 _ (fun t _ => flushed1_eq V c t) cover1

end Cert.KernelIdeal.Hand

end
-- ==== Proof.HostVals.lean ====
/-
  What the host operations around the two pallas_calls put in the arrays the calls read.

  Before the first call the host cuts the edge list into its source and destination rows, aggregates the input features
  (mean over incoming edges), transposes the first layer's two weight matrices and reshapes its bias to a row.  Between
  the calls it aggregates the first call's output with the same two edge rows, transposes the second layer's weights and
  reshapes its bias.  Nothing else writes the buffers involved, so each is read back through the fold of the operations.
-/
import proofs.«112380_j70325794505477_1_alg».proof.Proof.Gen.KernelIdeal.Frame
import proofs.«112380_j70325794505477_1_alg».proof.Proof.Spec
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Cert.Sage (Dims srcOf dstOf meanAgg)

/-- The gather, the scatter-adds and the layout side conditions as this program prints them. -/
def dimsK : Dims :=
  ⟨gather_S50000x64_S800000x1_S800000x64_1_0_n_n_0_1_164, scatter_S50000x64_S800000x1_S800000x64_1_0_0_1, scatter_S50000_S800000x1_S800000_n_0_0_1,
   bcast_S_S800000, bcast_S800000_S800000x1_0, bcast_S_S50000x64, bcast_S_S50000, bcast_S50000_S50000x1_0, bcast_S50000x1_S50000x64_0_1,
   transposes_S64x64_S64x64_1_0, shapeCasts_S64_S1x64, slices_S2x800000_S1x800000_0_0, slices_S2x800000_S1x800000_1_0, shapeCasts_S1x800000_S800000⟩

variable (m : (ℓ : Loc nD τ sig) → Buf (Elt Ideal) ℓ) (ρ : Dev nD → PrngReg)

/-- Entering the first call, its aggregated operand holds the mean aggregation of the input features. -/
theorem V1_v22 (c : Dev nD) : V1 m ρ c main_v22
    = meanAgg (F := Ideal) dimsK (m ((c : Thread nD τ).loc main_arg0)) (srcOf dimsK (m ((c : Thread nD τ).loc main_arg1))) (dstOf dimsK (m ((c : Thread nD τ).loc main_arg1))) := by
  show StableHlo.after hostOps0 (W0 m ρ c) (Proc.devRef .tc main_v22) = _
  after_results_simp <;> rfl

/-- Its node-feature operand is the input array itself. -/
theorem V1_arg0 (c : Dev nD) : V1 m ρ c main_arg0 = m ((c : Thread nD τ).loc main_arg0) := by
  show StableHlo.after hostOps0 (W0 m ρ c) (Proc.devRef .tc main_arg0) = _
  after_results_simp <;> rfl

/-- Its neighbour-weight operand is the first layer's neighbour weights transposed. -/
theorem V1_v23 (c : Dev nD) : V1 m ρ c main_v23 = transpose S64x64 [1, 0] (m ((c : Thread nD τ).loc main_arg2)) dimsK.tr := by
  show StableHlo.after hostOps0 (W0 m ρ c) (Proc.devRef .tc main_v23) = _
  after_results_simp <;> rfl

/-- Its root-weight operand is the first layer's root weights transposed. -/
theorem V1_v24 (c : Dev nD) : V1 m ρ c main_v24 = transpose S64x64 [1, 0] (m ((c : Thread nD τ).loc main_arg4)) dimsK.tr := by
  show StableHlo.after hostOps0 (W0 m ρ c) (Proc.devRef .tc main_v24) = _
  after_results_simp <;> rfl

/-- Its bias operand is the first layer's bias as a row. -/
theorem V1_v25 (c : Dev nD) : V1 m ρ c main_v25 = shapeCast S1x64 (m ((c : Thread nD τ).loc main_arg3)) dimsK.rs := by
  show StableHlo.after hostOps0 (W0 m ρ c) (Proc.devRef .tc main_v25) = _
  after_results_simp <;> rfl

/-! ## Between the calls -/

/-- The first call leaves the edges' source row as the first stretch computed it. -/
theorem W2_v1 (c : Dev nD) : W2 m ρ c (Proc.devRef .tc main_v1) = srcOf (F := Ideal) dimsK (m ((c : Thread nD τ).loc main_arg1)) :=
  (W2_of_ne m ρ c main_v1 (by decide)).trans (by
    show StableHlo.after hostOps0 (W0 m ρ c) (Proc.devRef .tc main_v1) = _
    after_results_simp <;> rfl)

/-- And the destination row. -/
theorem W2_v3 (c : Dev nD) : W2 m ρ c (Proc.devRef .tc main_v3) = dstOf (F := Ideal) dimsK (m ((c : Thread nD τ).loc main_arg1)) :=
  (W2_of_ne m ρ c main_v3 (by decide)).trans (by
    show StableHlo.after hostOps0 (W0 m ρ c) (Proc.devRef .tc main_v3) = _
    after_results_simp <;> rfl)

/-- The second layer's arguments are untouched by the first stretch and the first call. -/
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

/-- Entering the second call, its aggregated operand holds the mean aggregation of the first call's output. -/
theorem V3_v45 (c : Dev nD) : V3 m ρ c main_v45
    = meanAgg (F := Ideal) dimsK (W2 m ρ c (Proc.devRef .tc main_v26)) (W2 m ρ c (Proc.devRef .tc main_v1)) (W2 m ρ c (Proc.devRef .tc main_v3)) := by
  show StableHlo.after hostOps1 (W2 m ρ c) (Proc.devRef .tc main_v45) = _
  after_results_simp <;> rfl

/-- Its node-feature operand is the first call's output. -/
theorem V3_v26 (c : Dev nD) : V3 m ρ c main_v26 = W2 m ρ c (Proc.devRef .tc main_v26) := by
  show StableHlo.after hostOps1 (W2 m ρ c) (Proc.devRef .tc main_v26) = _
  after_results_simp <;> rfl

theorem V3_v46 (c : Dev nD) : V3 m ρ c main_v46 = transpose S64x64 [1, 0] (W2 m ρ c (Proc.devRef .tc main_arg5)) dimsK.tr := by
  show StableHlo.after hostOps1 (W2 m ρ c) (Proc.devRef .tc main_v46) = _
  after_results_simp <;> rfl

theorem V3_v47 (c : Dev nD) : V3 m ρ c main_v47 = transpose S64x64 [1, 0] (W2 m ρ c (Proc.devRef .tc main_arg7)) dimsK.tr := by
  show StableHlo.after hostOps1 (W2 m ρ c) (Proc.devRef .tc main_v47) = _
  after_results_simp <;> rfl

theorem V3_v48 (c : Dev nD) : V3 m ρ c main_v48 = shapeCast S1x64 (W2 m ρ c (Proc.devRef .tc main_arg6)) dimsK.rs := by
  show StableHlo.after hostOps1 (W2 m ρ c) (Proc.devRef .tc main_v48) = _
  after_results_simp <;> rfl

end Cert.KernelIdeal.Hand

end
-- ==== Proof.KValue.lean ====
/-
  The idealized kernel program's result array is the network function of its arguments.

  The result buffer after the run is what the second call's write-backs leave: the second layer of the arrays the call was
  entered with.  Those are the mean aggregation of the first call's output, that output itself, the transposed weights and the
  bias row; and the first call's output is, in the same way, the first layer under tanh of the aggregated inputs and the
  inputs.
-/
import proofs.«112380_j70325794505477_1_alg».proof.Proof.Region
import proofs.«112380_j70325794505477_1_alg».proof.Proof.HostVals

set_option maxRecDepth 16384

noncomputable section

namespace Cert.KernelIdeal.Hand

open Cert.KernelIdeal Cert.KernelIdeal.Gen Idealize.ShloMosaic Idealize.ShloMosaic.TcCoe Idealize.SL.Sem
open Cert.Sage (Dims srcOf dstOf meanAgg layerPre layerTanh hiddenOut network)

variable (m : (ℓ : Loc nD τ sig) → Buf (Elt Ideal) ℓ) (ρ : Dev nD → PrngReg)

/-- The first call's output array is the hidden features. -/
theorem W2_v26 (c : Dev nD) : W2 m ρ c (Proc.devRef .tc main_v26)
    = hiddenOut dimsK (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 5).trans ?_
  rw [final0 (V1 m ρ) c, V1_v22, V1_arg0, V1_v23, V1_v24, V1_v25]
  rfl

/-- The result array after the run is the network's output. -/
theorem W4_v49 (c : Dev nD) : W4 m ρ c (Proc.devRef .tc main_v49)
    = network dimsK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 5).trans ?_
  rw [final1 (V3 m ρ) c, V3_v45, V3_v26, V3_v46, V3_v47, V3_v48, W2_v26, W2_v1, W2_v3, W2_arg5, W2_arg6, W2_arg7]
  rfl

end Cert.KernelIdeal.Hand

end
-- ==== Proof.RefValue.lean ====
/-
  The reference program computes the network function.

  Its second aggregation repeats the first one's index arithmetic on the same edge list, so both are the mean aggregation of
  the specification.  Each layer is a product with the transposed neighbour weights, plus the bias broadcast over the rows,
  plus a product with the transposed root weights; entry by entry that is the specification's layer with the bias added
  before the second product, and addition of extended reals may be reordered.
-/
import proofs.«112380_j70325794505477_1_alg».proof.Proof.Gen.ReferenceIdeal.Read
import proofs.«112380_j70325794505477_1_alg».proof.Proof.Spec
import Idealize.ShloMosaic.Lib.ValueLayout

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Sage

/-- The gather, the scatter-adds and the layout side conditions as this program prints them. -/
def dimsR : Dims :=
  ⟨gather_S50000x64_S800000x1_S800000x64_1_0_n_n_0_1_164, scatter_S50000x64_S800000x1_S800000x64_1_0_0_1, scatter_S50000_S800000x1_S800000_n_0_0_1,
   bcast_S_S800000, bcast_S800000_S800000x1_0, bcast_S_S50000x64, bcast_S_S50000, bcast_S50000_S50000x1_0, bcast_S50000x1_S50000x64_0_1,
   transposes_S64x64_S64x64_1_0, (by decide), slices_S2x800000_S1x800000_0_0, slices_S2x800000_S1x800000_1_0, shapeCasts_S1x800000_S800000⟩

/-- The first aggregation is the mean aggregation of the inputs. -/
theorem v22_eq (x0 : (⟨S50000x64, .f32⟩ : BufTy).Contents (Elt Ideal)) (x1 : (⟨S2x800000, .i32⟩ : BufTy).Contents (Elt Ideal)) :
    val_main_v22 (F := Ideal) x0 x1 = meanAgg (F := Ideal) dimsR x0 (srcOf dimsR x1) (dstOf dimsR x1) := rfl

/-- The second aggregation is the mean aggregation of the hidden features. -/
theorem v50_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v50 (F := Ideal) x0 x1 x2 x3 x4 = meanAgg (F := Ideal) dimsR (val_main_v31 (F := Ideal) x0 x1 x2 x3 x4) (srcOf dimsR x1) (dstOf dimsR x1) := rfl

/-- The hidden features. -/
theorem v31_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v31 (F := Ideal) x0 x1 x2 x3 x4 = hiddenOut dimsR x0 x1 x2 x3 x4 := by
  funext i
  rw [val_main_v31_apply, val_main_v30_apply, val_main_v27_apply, val_main_v24_apply, val_main_v26_apply, val_main_v25_apply, val_main_v29_apply]
  unfold hiddenOut layerTanh layerPre
  rw [← pre_eq_bias_first]
  have el : ∀ k : Fin 64, lidx_main_v24 i k = ix2 (row i) k := fun k => funext fun a => Fin.ext (by match a with | ⟨0, _⟩ => rfl | ⟨1, _⟩ => rfl)
  have er : ∀ k : Fin 64, ridx_main_v24 i k = ix2 k (col i) := fun k => funext fun a => Fin.ext (by match a with | ⟨0, _⟩ => rfl | ⟨1, _⟩ => rfl)
  have el' : ∀ k : Fin 64, lidx_main_v29 i k = ix2 (row i) k := fun k => funext fun a => Fin.ext (by match a with | ⟨0, _⟩ => rfl | ⟨1, _⟩ => rfl)
  have er' : ∀ k : Fin 64, ridx_main_v29 i k = ix2 k (col i) := fun k => funext fun a => Fin.ext (by match a with | ⟨0, _⟩ => rfl | ⟨1, _⟩ => rfl)
  have eb : x3 (idx_main_v25 (idx_main_v26 i)) = shapeCast S1D x3 dimsR.rs (ix2 (0 : Fin 1) (col i)) := by
    rw [shapeCast_a_1a_apply]
    exact congrArg x3 (funext fun a => Fin.ext (by match a with | ⟨0, _⟩ => rfl))
  simp only [Ideal.hostUnary_tanh_def, Ideal.addf_def]
  refine congrArg Ideal.tanh (congrArg₂ (· + ·) (congrArg₂ (· + ·) (Finset.sum_congr rfl fun k _ => ?_) eb) (Finset.sum_congr rfl fun k _ => ?_))
  · rw [el, er, v22_eq]; rfl
  · rw [el', er']; rfl

/-- The reference's result is the network's output. -/
theorem v58_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 x5 : (⟨S64x64, .f32⟩ : BufTy).Contents (Elt Ideal))
    (x6 : (⟨S64, .f32⟩ : BufTy).Contents (Elt Ideal)) (x7 : (⟨S64x64, .f32⟩ : BufTy).Contents (Elt Ideal)) :
    val_main_v58 (F := Ideal) x0 x1 x2 x3 x4 x5 x6 x7 = network dimsR x0 x1 x2 x3 x4 x5 x6 x7 := by
  funext i
  rw [val_main_v58_apply, val_main_v55_apply, val_main_v52_apply, val_main_v54_apply, val_main_v53_apply, val_main_v57_apply]
  unfold network layerPre
  rw [← pre_eq_bias_first]
  have el : ∀ k : Fin 64, lidx_main_v52 i k = ix2 (row i) k := fun k => funext fun a => Fin.ext (by match a with | ⟨0, _⟩ => rfl | ⟨1, _⟩ => rfl)
  have er : ∀ k : Fin 64, ridx_main_v52 i k = ix2 k (col i) := fun k => funext fun a => Fin.ext (by match a with | ⟨0, _⟩ => rfl | ⟨1, _⟩ => rfl)
  have el' : ∀ k : Fin 64, lidx_main_v57 i k = ix2 (row i) k := fun k => funext fun a => Fin.ext (by match a with | ⟨0, _⟩ => rfl | ⟨1, _⟩ => rfl)
  have er' : ∀ k : Fin 64, ridx_main_v57 i k = ix2 k (col i) := fun k => funext fun a => Fin.ext (by match a with | ⟨0, _⟩ => rfl | ⟨1, _⟩ => rfl)
  have eb : x6 (idx_main_v53 (idx_main_v54 i)) = shapeCast S1D x6 dimsR.rs (ix2 (0 : Fin 1) (col i)) := by
    rw [shapeCast_a_1a_apply]
    exact congrArg x6 (funext fun a => Fin.ext (by match a with | ⟨0, _⟩ => rfl))
  simp only [Ideal.addf_def]
  refine congrArg₂ (· + ·) (congrArg₂ (· + ·) (Finset.sum_congr rfl fun k _ => ?_) eb) (Finset.sum_congr rfl fun k _ => ?_)
  · rw [el, er, v50_eq, v31_eq]; rfl
  · rw [el', er', v31_eq]; rfl

end Cert.ReferenceIdeal.RefValue

end
-- ==== Proof.lean ====
/-
  Two stacked mean-aggregating graph convolutions, tanh between them: the Pallas program against its jnp reference.

  Both programs aggregate, per destination node, the mean of the source nodes' feature rows over the incoming edges, with the
  same host operations on the same edge list.  The Pallas program then runs each layer's dense part as one pallas_call over
  five blocks of 10000 rows: aggregated rows times the transposed neighbour weights, plus node rows times the transposed root
  weights, plus the bias (and tanh in the first layer); roundings to bf16 on the way into the products are the identity on the
  extended reals.  The reference computes the same three terms with the bias added before the second product.  Addition of
  extended reals is commutative and associative, at the infinities too, so the two orders agree and no finiteness of the
  inputs is used: entry by entry both programs return the specification's `network` of the eight arguments.

  The three frames are the generated ones (the reference's is its generated run with the result dropped); the idealized
  program is the printed program with no operation rewritten, so the idealization conjunct is trivial.
-/
import proofs.«112380_j70325794505477_1_alg».proof.Defs
import proofs.«112380_j70325794505477_1_alg».proof.Proof.Gen.Kernel
import proofs.«112380_j70325794505477_1_alg».proof.Proof.Gen.Kernel.Skeleton
import proofs.«112380_j70325794505477_1_alg».proof.Proof.Gen.Kernel.Launch
import proofs.«112380_j70325794505477_1_alg».proof.Proof.Gen.Kernel.Points
import proofs.«112380_j70325794505477_1_alg».proof.Proof.Gen.Kernel.Frame
import proofs.«112380_j70325794505477_1_alg».proof.Proof.Gen.KernelIdeal
import proofs.«112380_j70325794505477_1_alg».proof.Proof.Gen.KernelIdeal.Skeleton
import proofs.«112380_j70325794505477_1_alg».proof.Proof.Gen.KernelIdeal.Launch
import proofs.«112380_j70325794505477_1_alg».proof.Proof.Gen.KernelIdeal.Points
import proofs.«112380_j70325794505477_1_alg».proof.Proof.Gen.KernelIdeal.Frame
import proofs.«112380_j70325794505477_1_alg».proof.Proof.Gen.ReferenceIdeal
import proofs.«112380_j70325794505477_1_alg».proof.Proof.Gen.ReferenceIdeal.Run
import proofs.«112380_j70325794505477_1_alg».proof.Proof.Gen.ReferenceIdeal.Read
import proofs.«112380_j70325794505477_1_alg».proof.Proof.Gen.Pre_finite_inputs
import proofs.«112380_j70325794505477_1_alg».proof.Proof.KRun
import proofs.«112380_j70325794505477_1_alg».proof.Proof.KValue
import proofs.«112380_j70325794505477_1_alg».proof.Proof.RefValue
import Idealize.ShloMosaic.Adequacy
import Idealize.ShloMosaic.Init

noncomputable section

namespace Cert.Proof

open Idealize.ShloMosaic Idealize.ShloMosaic.TcCoe Idealize.SL.Sem

/-- The two programs print the same gather, scatter-adds and layout operations. -/
theorem dims_eq : Cert.ReferenceIdeal.RefValue.dimsR = Cert.KernelIdeal.Hand.dimsK := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized program. -/
theorem preserves : Cert.preserves_Kernel_KernelIdeal := trivial

/-- Both idealized programs end with their result array at the network function of the (agreeing) arguments. -/
theorem algebraic : Cert.algebraic_KernelIdeal_ReferenceIdeal := by
  intro m ρ m' ρ' _ hagree
  refine ⟨fun c => Cert.Sage.network Cert.KernelIdeal.Hand.dimsK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Hand.W4_v49 m ρ c), (h c).2⟩)
      (Cert.KernelIdeal.Hand.run_out (F := Ideal) m ρ)
  · refine (θ_run Cert.ReferenceIdeal.defs _ _).mono (fun _ h c => ⟨?_, (h c).2⟩) (Cert.ReferenceIdeal.Value.run (F := Ideal) m' ρ')
    obtain ⟨e0, e1, e2, e3, e4, e5, e6, e7⟩ := hagree c
    rw [(h c).1, Cert.ReferenceIdeal.Read.val_main_v58_eq, Cert.ReferenceIdeal.RefValue.v58_eq, dims_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
